-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x1x2048 : Shape := ⟨3, ![8, 1, 2048]⟩
abbrev S256x128 : Shape := ⟨2, ![256, 128]⟩
abbrev S256x1 : Shape := ⟨2, ![256, 1]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S8x2048x256 .f32) (main_arg1 : FVec F S8x2048x256 .f32) (main_arg2 : FVec F S8x1x2048 .f32) (main_arg3 : FVec F S256x128 .f32) (main_arg4 : FVec F S256x1 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x1x2048 .f32 := Host.absf main_arg2
  let main_cst_2 : FVec F S_ .f32 := constant S_ .f32 0x7F800000#32
  let main_v10 : FVec F S8x1x2048 .f32 := broadcastInDim S8x1x2048 ![] bcast_S_S8x1x2048 main_cst_2
  let main_v11 : IVec S8x1x2048 1 := cmpf .olt main_v9 main_v10
  let main_c_3 : IVec S_ 1 := constantI S_ 1 1#1
  let main_v12 : IVec S_ 1 := (fun x v => Host.reduce IntOp.andi x v reducesTo_S8x1x2048_S_d0_1_2 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S8x2048x256 : Shape := ⟨3, ![8, 2048, 256]⟩
abbrev S8x1x2048 : Shape := ⟨3, ![8, 1, 2048]⟩
abbrev S256x128 : Shape := ⟨2, ![256, 128]⟩
abbrev S256x1 : Shape := ⟨2, ![256, 1]⟩
abbrev S128x1 : Shape := ⟨2, ![128, 1]⟩
abbrev S8x2048x128 : Shape := ⟨3, ![8, 2048, 128]⟩
abbrev S8x2048x2048 : Shape := ⟨3, ![8, 2048, 2048]⟩
abbrev S1x1024x256 : Shape := ⟨3, ![1, 1024, 256]⟩
abbrev S1x2048x256 : Shape := ⟨3, ![1, 2048, 256]⟩
abbrev S1x1x2048 : Shape := ⟨3, ![1, 1, 2048]⟩
abbrev S1x1024x128 : Shape := ⟨3, ![1, 1024, 128]⟩
abbrev S1x1024x2048 : Shape := ⟨3, ![1, 1024, 2048]⟩
abbrev S2048x128 : Shape := ⟨2, ![2048, 128]⟩
abbrev S1x2048 : Shape := ⟨2, ![1, 2048]⟩
abbrev S2048x256 : Shape := ⟨2, ![2048, 256]⟩
abbrev S2048x1 : Shape := ⟨2, ![2048, 1]⟩
abbrev S1024x256 : Shape := ⟨2, ![1024, 256]⟩
abbrev S1024x128 : Shape := ⟨2, ![1024, 128]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x1x2048, .f32⟩
  | .hbm, ⟨3, _⟩ => ⟨S256x128, .f32⟩
  | .hbm, ⟨4, _⟩ => ⟨S256x1, .f32⟩
  | .hbm, ⟨5, _⟩ => ⟨S128x1, .f32⟩
  | .hbm, ⟨6, _⟩ => ⟨S128x1, .f32⟩
  | .hbm, ⟨7, _⟩ => ⟨S8x2048x128, .f32⟩
  | .hbm, ⟨8, _⟩ => ⟨S8x2048x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x2048, .f32⟩
  | .local _ .vmem, ⟨5, _⟩ => ⟨S1x1x2048, .f32⟩
  | .local _ .vmem, ⟨6, _⟩ => ⟨S256x128, .f32⟩
  | .local _ .vmem, ⟨7, _⟩ => ⟨S128x1, .f32⟩
  | .local _ .vmem, ⟨8, _⟩ => ⟨S128x1, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x2048, .f32⟩
  | .local _ .vmem, ⟨12, _⟩ => ⟨S1x1024x2048, .f32⟩
  | .local _ .vmem, ⟨13, _⟩ => ⟨S2048x128, .bf16⟩
  | .local _ .vmem, ⟨14, _⟩ => ⟨S1x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S256x1_S128x1_0_0 : S256x1.Slices ![0, 0] S128x1
  slices_S256x1_S128x1_128_0 : S256x1.Slices ![128, 0] S128x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S2048x1_S1x2048 : S2048x1.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  broadcasts_S1024x1_S1024x2048 : S1024x1.Broadcasts S1024x2048
  broadcasts_S1x2048_S1024x2048 : S1x2048.Broadcasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S1024x2048_S1024 : S1024x2048.Reduces [1] S1024
  shapeCasts_S1024_S1024x1 : S1024.ShapeCasts S1024x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x2048x256.size a
  hwx0_0 : ∀ i : grid0.Coords, EltTy.bits .f32 = 32 ∨ (Rect.block (s := S8x2048x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S8x2048x128.size a
  hwx0_6 : ∀ i : grid0.Coords, EltTy.bits .f32 = 32 ∨ (Rect.block (s := S8x2048x128) S1x1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x2048.size a ≤ S8x2048x2048.size a
  hwx0_7 : ∀ i : grid0.Coords, EltTy.bits .f32 = 32 ∨ (Rect.block (s := S8x2048x2048) S1x1024x2048.size (cc0_transform_7 i) (hinb0_7 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1x1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x1x2048 : Shape := ⟨3, ![8, 1, 2048]⟩
abbrev S256x128 : Shape := ⟨2, ![256, 128]⟩
abbrev S256x1 : Shape := ⟨2, ![256, 1]⟩
abbrev S8x2048x128 : Shape := ⟨3, ![8, 2048, 128]⟩
abbrev S128x1 : Shape := ⟨2, ![128, 1]⟩
abbrev S8x2048x1 : Shape := ⟨3, ![8, 2048, 1]⟩
abbrev S8x2048x2048 : Shape := ⟨3, ![8, 2048, 2048]⟩
abbrev S_ : Shape := ⟨0, ![]⟩
abbrev S8x2048 : Shape := ⟨2, ![8, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x1x2048, .f32⟩
  | .hbm, ⟨3, _⟩ => ⟨S256x128, .f32⟩
  | .hbm, ⟨4, _⟩ => ⟨S256x1, .f32⟩
  | .hbm, ⟨5, _⟩ => ⟨S8x2048x128, .f32⟩
  | .hbm, ⟨6, _⟩ => ⟨S8x2048x128, .f32⟩
  | .hbm, ⟨7, _⟩ => ⟨S128x1, .f32⟩
  | .hbm, ⟨8, _⟩ => ⟨S8x2048x1, .f32⟩
  | .hbm, ⟨9, _⟩ => ⟨S128x1, .f32⟩
  | .hbm, ⟨10, _⟩ => ⟨S8x2048x1, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .i1⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x128, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  dot_S8x2048x256_S256x128_S8x2048x128_2_0_01_1_n_n_wf : DotDims.WF S8x2048x256 S256x128 S8x2048x128 [2] [0] [0, 1] [1] [] []
  dot_S8x2048x128_S128x1_S8x2048x1_2_0_01_1_n_n_wf : DotDims.WF S8x2048x128 S128x1 S8x2048x1 [2] [0] [0, 1] [1] [] []
  dot_S8x2048x2048_S8x2048x128_S8x2048x128_2_1_1_2_0_0_wf : DotDims.WF S8x2048x2048 S8x2048x128 S8x2048x128 [2] [1] [1] [2] [0] [0]

variable [Facts₀]

def dot_S8x2048x256_S256x128_S8x2048x128_2_0_01_1_n_n : DotDims S8x2048x256 S256x128 S8x2048x128 where
  lhsContracting := [2]
  rhsContracting := [0]
  lhsNonContracting := [0, 1]
  rhsNonContracting := [1]
  lhsBatch := []
  rhsBatch := []
  wf := dot_S8x2048x256_S256x128_S8x2048x128_2_0_01_1_n_n_wf
def dot_S8x2048x128_S128x1_S8x2048x1_2_0_01_1_n_n : DotDims S8x2048x128 S128x1 S8x2048x1 where
  lhsContracting := [2]
  rhsContracting := [0]
  lhsNonContracting := [0, 1]
  rhsNonContracting := [1]
  lhsBatch := []
  rhsBatch := []
  wf := dot_S8x2048x128_S128x1_S8x2048x1_2_0_01_1_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLogSoftmax.lean ====
/-
  The row-wise log-softmax `z − max z − log ∑ exp (z − max z)` of an `[M, C]` array, in its two spellings, read as ONE
  index-by-index function over the extended reals.

  * In a kernel: a lane `multi_reduction <maximumf>` from −∞, the result cast to a column and broadcast back, a
    subtraction, `exp`, a lane `multi_reduction <add>`, `log` of the column, a second subtraction.
  * On the host: a `reduce` with a `maximum` body from −∞ (and one more `maximum` with a splat −∞, which changes
    nothing), the column forms by `broadcast_in_dim`, a `reduce` with an `add` body from zero.

  Both read, at `(p, q)`, `(z (p, q) − μ) − log ∑ⱼ exp (z (p, j) − μ)` with `μ` the fold of `max` from −∞ over row `p`.
  The only laws used: `max (−∞) y = y` and `0 + s = s`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«154157_j10754598109600_1_alg».proof.Proof.LibKeepdims

noncomputable section

namespace Cert.Lib

open Idealize.ShloMosaic Idealize.ShloMosaic.ValueIdx

variable {M C : Nat}

/-- The maximum of row `r`, taken from −∞. -/
def rowMax (z : (⟨2, ![M, C]⟩ : Shape).Idx → EReal) (r : Fin M) : EReal :=
  (Finset.univ : Finset (Fin C)).fold max (Ideal.ofBits .f32 0xFF800000#32) (fun j => z (ix2 r j))

/-- Each entry less its row's maximum. -/
def shifted (z : (⟨2, ![M, C]⟩ : Shape).Idx → EReal) : (⟨2, ![M, C]⟩ : Shape).Idx → EReal :=
  fun i => z i - rowMax z (i 0)

/-- The row-wise log-softmax: the shifted entry less the logarithm of the row's sum of exponentials. -/
def logSoftmax (z : (⟨2, ![M, C]⟩ : Shape).Idx → EReal) : (⟨2, ![M, C]⟩ : Shape).Idx → EReal :=
  fun i => shifted z i - Ideal.log (∑ j : Fin C, Ideal.exp (shifted z (ix2 (i 0) j)))

/-- Row `p` with lane `k` put back is the index `(p, k)`. -/
theorem lift_lane (h : (⟨2, ![M, C]⟩ : Shape).Reduces [(1 : Fin 2)] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

theorem max_negInf (y : EReal) : max (Ideal.ofBits .f32 0xFF800000#32) y = y := by
  simp [Ideal.ofBits, Ideal.ieee]

/-- The kernel's spelling. -/
theorem kernel_logSoftmax (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf (subf z (broadcastTo ⟨2, ![M, C]⟩ (shapeCast ⟨2, ![M, 1]⟩
            (multiReduction .maximumf [(1 : Fin 2)] ⟨1, ![M]⟩ z 0xFF800000#32 hr hφ hmax) hc) hb))
        (broadcastTo ⟨2, ![M, C]⟩ (log (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc)) hb)
      = logSoftmax z := by
  have hmx : ∀ (p : Fin M) (q : Fin C), broadcastTo ⟨2, ![M, C]⟩ (shapeCast ⟨2, ![M, 1]⟩
      (multiReduction .maximumf [(1 : Fin 2)] ⟨1, ![M]⟩ z 0xFF800000#32 hr hφ hmax) hc) hb (ix2 p q) = rowMax z p := by
    intro p q
    rw [Cert.LibKeepdims.broadcastTo_a1_ab_apply _ hb p q, Cert.LibKeepdims.shapeCast_a_a1_apply _ hc p (0 : Fin 1),
      Ideal.multiReduction_maximumf_single z _ hr hφ hmax (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastTo ⟨2, ![M, C]⟩ (shapeCast ⟨2, ![M, 1]⟩
      (multiReduction .maximumf [(1 : Fin 2)] ⟨1, ![M]⟩ z 0xFF800000#32 hr hφ hmax) hc) hb) (ix2 p q) = shifted z (ix2 p q) := by
    intro p q
    show z (ix2 p q) - _ = z (ix2 p q) - rowMax z p
    rw [hmx p q]
  funext i
  obtain ⟨p, q, rfl⟩ : ∃ (p : Fin M) (q : Fin C), i = ix2 p q := ⟨i 0, i 1, eq_ix2 i⟩
  show subf z _ (ix2 p q) - broadcastTo ⟨2, ![M, C]⟩ _ hb (ix2 p q)
    = shifted z (ix2 p q) - Ideal.log (∑ j : Fin C, Ideal.exp (shifted z (ix2 p j)))
  rw [hsh p q, Cert.LibKeepdims.broadcastTo_a1_ab_apply _ hb p q]
  show shifted z (ix2 p q) - Ideal.log (shapeCast ⟨2, ![M, 1]⟩ _ hc (ix2 p (0 : Fin 1))) = _
  rw [Cert.LibKeepdims.shapeCast_a_a1_apply _ hc p (0 : Fin 1), Ideal.multiReduction_add_single _ _ hr hφ hadd (ix1 p)]
  refine congrArg (fun s => shifted z (ix2 p q) - Ideal.log s) (Finset.sum_congr rfl fun k _ => ?_)
  rw [lift_lane hr p k]
  exact congrArg Ideal.exp (hsh p k)

/-- The host's spelling. -/
theorem host_logSoftmax (z : FVec Ideal ⟨2, ![M, C]⟩ .f32)
    (h' : (⟨2, ![M, C]⟩ : Shape).ReducesTo [(1 : Fin 2)] (⟨1, ![M]⟩ : Shape))
    (hr : (⟨2, ![M, C]⟩ : Shape).Reduces [(1 : Fin 2)] (⟨1, ![M]⟩ : Shape)) (hu : 0 < (⟨0, ![]⟩ : Shape).numel)
    (b0 : (⟨0, ![]⟩ : Shape).BroadcastsInDim ⟨1, ![M]⟩ ![])
    (b1 : (⟨1, ![M]⟩ : Shape).BroadcastsInDim ⟨2, ![M, 1]⟩ ![0])
    (b2 : (⟨2, ![M, 1]⟩ : Shape).BroadcastsInDim ⟨2, ![M, C]⟩ ![0, 1]) :
    subf (subf z (broadcastInDim ⟨2, ![M, C]⟩ ![0, 1] b2 (broadcastInDim ⟨2, ![M, 1]⟩ ![0] b1
            (maximumf (broadcastInDim ⟨1, ![M]⟩ ![] b0 (constant (F := Ideal) ⟨0, ![]⟩ .f32 0xFF800000#32))
              (Host.reduce FloatOps.maximumf z (constant (F := Ideal) ⟨0, ![]⟩ .f32 0xFF800000#32) h' hu)))))
        (broadcastInDim ⟨2, ![M, C]⟩ ![0, 1] b2 (Host.log (broadcastInDim ⟨2, ![M, 1]⟩ ![0] b1
            (Host.reduceAdd (Host.exp (subf z (broadcastInDim ⟨2, ![M, C]⟩ ![0, 1] b2 (broadcastInDim ⟨2, ![M, 1]⟩ ![0] b1
              (maximumf (broadcastInDim ⟨1, ![M]⟩ ![] b0 (constant (F := Ideal) ⟨0, ![]⟩ .f32 0xFF800000#32))
                (Host.reduce FloatOps.maximumf z (constant (F := Ideal) ⟨0, ![]⟩ .f32 0xFF800000#32) h' hu))))))
              (constant (F := Ideal) ⟨0, ![]⟩ .f32 0x00000000#32) h' hu))))
      = logSoftmax z := by
  -- a column `[M, 1]` made from a vector `[M]` and broadcast over the lanes reads the vector at the row
  have hcol : ∀ (v : (⟨1, ![M]⟩ : Shape).Idx → EReal) (p : Fin M) (q : Fin C),
      broadcastInDim ⟨2, ![M, C]⟩ ![0, 1] b2 (broadcastInDim ⟨2, ![M, 1]⟩ ![0] b1 v) (ix2 p q) = v (ix1 p) := by
    intro v p q
    rw [broadcastInDim_apply ![0, 1] b2 _ (ix2 p q) (ix2 p (0 : Fin 1)) (fun a => by
      match a with
      | ⟨0, _⟩ =>
        show p.val = if M = 1 then 0 else p.val
        split
        · have := p.isLt; omega
        · rfl
      | ⟨1, _⟩ => rfl)]
    rw [broadcastInDim_apply ![0] b1 v (ix2 p (0 : Fin 1)) (ix1 p) (fun a => by
      match a with
      | ⟨0, _⟩ =>
        show p.val = if M = 1 then 0 else p.val
        split
        · have := p.isLt; omega
        · rfl)]
  have hmx : ∀ (p : Fin M), maximumf (broadcastInDim ⟨1, ![M]⟩ ![] b0 (constant (F := Ideal) ⟨0, ![]⟩ .f32 0xFF800000#32))
      (Host.reduce FloatOps.maximumf z (constant (F := Ideal) ⟨0, ![]⟩ .f32 0xFF800000#32) h' hu) (ix1 p) = rowMax z p := by
    intro p
    show max (broadcastInDim ⟨1, ![M]⟩ ![] b0 (constant (F := Ideal) ⟨0, ![]⟩ .f32 0xFF800000#32) (ix1 p))
      (Host.reduce FloatOps.maximumf z (constant (F := Ideal) ⟨0, ![]⟩ .f32 0xFF800000#32) h' hu (ix1 p)) = _
    rw [broadcastInDim_apply ![] b0 _ (ix1 p) ix0 (fun a => a.elim0)]
    show max (Ideal.ofBits .f32 0xFF800000#32) _ = _
    rw [max_negInf, Host.reduce_eq_fold_single FloatOps.maximumf z _ h' hr hu (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastInDim ⟨2, ![M, C]⟩ ![0, 1] b2 (broadcastInDim ⟨2, ![M, 1]⟩ ![0] b1
      (maximumf (broadcastInDim ⟨1, ![M]⟩ ![] b0 (constant (F := Ideal) ⟨0, ![]⟩ .f32 0xFF800000#32))
        (Host.reduce FloatOps.maximumf z (constant (F := Ideal) ⟨0, ![]⟩ .f32 0xFF800000#32) h' hu)))) (ix2 p q)
      = shifted z (ix2 p q) := by
    intro p q
    show z (ix2 p q) - _ = z (ix2 p q) - rowMax z p
    rw [hcol _ p q, hmx p]
  funext i
  obtain ⟨p, q, rfl⟩ : ∃ (p : Fin M) (q : Fin C), i = ix2 p q := ⟨i 0, i 1, eq_ix2 i⟩
  show subf z _ (ix2 p q) - _ = shifted z (ix2 p q) - Ideal.log (∑ j : Fin C, Ideal.exp (shifted z (ix2 p j)))
  rw [hsh p q]
  have hlog : ∀ (v : (⟨1, ![M]⟩ : Shape).Idx → EReal),
      broadcastInDim ⟨2, ![M, C]⟩ ![0, 1] b2 (Host.log (F := Ideal) (φ := .f32) (broadcastInDim ⟨2, ![M, 1]⟩ ![0] b1 v)) (ix2 p q)
        = Ideal.log (v (ix1 p)) := by
    intro v
    have e := hcol (fun j => Ideal.log (v j)) p q
    exact e
  rw [hlog]
  show shifted z (ix2 p q) - Ideal.log (Ideal.hostReduceAdd h' _ (Ideal.ofBits .f32 0x00000000#32) (ix1 p)) = _
  rw [Ideal.hostReduceAdd_single h' hr _ _ (ix1 p), Ideal.ofBits_zero_f32, zero_add]
  refine congrArg (fun s => shifted z (ix2 p q) - Ideal.log s) (Finset.sum_congr rfl fun k _ => ?_)
  rw [lift_lane hr p k]
  exact congrArg Ideal.exp (hsh p k)

end Cert.Lib

end
-- ==== Proof.LibRowSoftmax.lean ====
/-
  The softmax of a row, `exp (s q − μ) / ∑ⱼ exp (s j − μ)` with `μ` the row's maximum taken from −∞, as ONE function over
  the extended reals, and the kernel spelling of it along the lanes of an `[M, C]` array: a lane
  `multi_reduction <maximumf>` from −∞ (and one more `maximumf` with a splat −∞, which changes nothing), the result cast
  to a column and broadcast back, a subtraction, `exp`, a lane `multi_reduction <add>`, the column forms again, and a
  division.  The only law used is `max (−∞) y = y`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«154157_j10754598109600_1_alg».proof.Proof.LibKeepdims
import proofs.«154157_j10754598109600_1_alg».proof.Proof.LibLogSoftmax

noncomputable section

namespace Cert.Lib

open Idealize.ShloMosaic Idealize.ShloMosaic.ValueIdx

variable {M C : Nat}

/-- The maximum of a row, taken from −∞. -/
def rowTop (s : Fin C → EReal) : EReal :=
  (Finset.univ : Finset (Fin C)).fold max (Ideal.ofBits .f32 0xFF800000#32) s

/-- The softmax of a row: each entry's exponential, shifted by the row's maximum, over the sum of them all. -/
def softmaxRow (s : Fin C → EReal) : Fin C → EReal :=
  fun q => Ideal.div (Ideal.exp (s q - rowTop s)) (∑ j : Fin C, Ideal.exp (s j - rowTop s))

/-- An array divided by the column of its lane sums broadcast back, read at `(p, q)`: when row `p` of the array is the
    family `f`, the entry is `f q / ∑ⱼ f j`. -/
theorem kernel_rowOverSum (E : FVec Ideal ⟨2, ![M, C]⟩ .f32)
    (hr : (⟨2, ![M, C]⟩ : Shape).Reduces [(1 : Fin 2)] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) (f : Fin C → EReal) (hE : ∀ j : Fin C, E (ix2 p j) = f j) :
    divf E (broadcastTo ⟨2, ![M, C]⟩ (shapeCast ⟨2, ![M, 1]⟩
        (multiReduction .add [(1 : Fin 2)] ⟨1, ![M]⟩ E 0x00000000#32 hr hφ hadd) hc) hb) (ix2 p q)
      = Ideal.div (f q) (∑ j : Fin C, f j) := by
  show Ideal.div (E (ix2 p q)) (broadcastTo ⟨2, ![M, C]⟩ _ hb (ix2 p q)) = _
  rw [hE q, Cert.LibKeepdims.broadcastTo_a1_ab_apply _ hb p q, Cert.LibKeepdims.shapeCast_a_a1_apply _ hc p (0 : Fin 1),
    Ideal.multiReduction_add_single _ _ hr hφ hadd (ix1 p)]
  refine congrArg (fun s => Ideal.div (f q) s) (Finset.sum_congr rfl fun k _ => ?_)
  rw [lift_lane hr p k]
  exact hE ⟨k.val, k.isLt⟩

/-- The exponentials shifted by the row maximum, in the kernel's spelling, read at `(p, j)`. -/
theorem kernel_shiftedExp (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (j : Fin C) :
    exp (subf z (broadcastTo ⟨2, ![M, C]⟩ (shapeCast ⟨2, ![M, 1]⟩
        (maximumf (broadcast ⟨1, ![M]⟩ (Scalar.ofBits (F := Ideal) .f32 0xFF800000#32))
          (multiReduction .maximumf [(1 : Fin 2)] ⟨1, ![M]⟩ z 0xFF800000#32 hr hφ hmax)) hc) hb)) (ix2 p j)
      = Ideal.exp (z (ix2 p j) - rowTop (fun j => z (ix2 p j))) := by
  show Ideal.exp (z (ix2 p j) - broadcastTo ⟨2, ![M, C]⟩ _ hb (ix2 p j)) = _
  rw [Cert.LibKeepdims.broadcastTo_a1_ab_apply _ hb p j, Cert.LibKeepdims.shapeCast_a_a1_apply _ hc p (0 : Fin 1)]
  show Ideal.exp (z (ix2 p j) - max (Ideal.ofBits .f32 0xFF800000#32)
    (multiReduction .maximumf [(1 : Fin 2)] ⟨1, ![M]⟩ z 0xFF800000#32 hr hφ hmax (ix1 p))) = _
  rw [max_negInf, Ideal.multiReduction_maximumf_single z _ hr hφ hmax (ix1 p)]
  exact congrArg (fun f => Ideal.exp (z (ix2 p j) - (Finset.univ : Finset (Fin C)).fold max (Ideal.ofBits .f32 0xFF800000#32) f))
    (funext fun k => congrArg z (lift_lane hr p k))

/-- The kernel's spelling of the whole softmax, read at `(p, q)`: entry `q` of the softmax of row `p`. -/
theorem kernel_softmaxRows (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    divf (exp (subf z (broadcastTo ⟨2, ![M, C]⟩ (shapeCast ⟨2, ![M, 1]⟩
            (maximumf (broadcast ⟨1, ![M]⟩ (Scalar.ofBits (F := Ideal) .f32 0xFF800000#32))
              (multiReduction .maximumf [(1 : Fin 2)] ⟨1, ![M]⟩ z 0xFF800000#32 hr hφ hmax)) hc) hb)))
        (broadcastTo ⟨2, ![M, C]⟩ (shapeCast ⟨2, ![M, 1]⟩
            (multiReduction .add [(1 : Fin 2)] ⟨1, ![M]⟩
              (exp (subf z (broadcastTo ⟨2, ![M, C]⟩ (shapeCast ⟨2, ![M, 1]⟩
                (maximumf (broadcast ⟨1, ![M]⟩ (Scalar.ofBits (F := Ideal) .f32 0xFF800000#32))
                  (multiReduction .maximumf [(1 : Fin 2)] ⟨1, ![M]⟩ z 0xFF800000#32 hr hφ hmax)) hc) hb)))
              0x00000000#32 hr hφ hadd) hc) hb) (ix2 p q)
      = softmaxRow (fun j => z (ix2 p j)) q :=
  kernel_rowOverSum _ hr hφ hadd hc hb p q (fun j => Ideal.exp (z (ix2 p j) - rowTop (fun j => z (ix2 p j))))
    (fun j => kernel_shiftedExp z hr hφ hmax hc hb p j)

end Cert.Lib

end
-- ==== Proof.Spec.lean ====
/-
  Additive cross-attention as ONE function of the argument arrays, index by index, over the extended reals.

  For a batch `b`: the rows of both inputs are projected by `W` (`proj`); each projected row is contracted with one half of
  the attention vector `a` (`logit`, the first input with rows 0–127 of `a`, the second with rows 128–255); the score of a
  pair `(n, j)` is the leaky rectifier of the sum of the two logits plus the mask entry of `j`; the probabilities are the
  softmax of each score row; the context is the probabilities contracted with the second input's projected rows.
-/
import Idealize.ShloMosaic.PureOps.Ideal
import Idealize.ShloMosaic.Lib.ValueIdx
import proofs.«154157_j10754598109600_1_alg».proof.Proof.LibRowSoftmax

noncomputable section

namespace Cert.Attn

open Idealize.ShloMosaic Idealize.ShloMosaic.ValueIdx

abbrev SX : Shape := ⟨3, ![8, 2048, 256]⟩
abbrev SMask : Shape := ⟨3, ![8, 1, 2048]⟩
abbrev SW : Shape := ⟨2, ![256, 128]⟩
abbrev SA : Shape := ⟨2, ![256, 1]⟩
abbrev SCtx : Shape := ⟨3, ![8, 2048, 128]⟩
abbrev SProbs : Shape := ⟨3, ![8, 2048, 2048]⟩

/-- Row `e` of the first half of the attention vector. -/
def topRow (e : Fin 128) : Fin 256 := ⟨e.val, by have := e.isLt; omega⟩
/-- Row `e` of the second half of the attention vector. -/
def botRow (e : Fin 128) : Fin 256 := ⟨128 + e.val, by have := e.isLt; omega⟩

/-- Row `(b, n)` of `x` projected by `W`, at column `e`. -/
def proj (x : SX.Idx → EReal) (W : SW.Idx → EReal) (b : Fin 8) (n : Fin 2048) (e : Fin 128) : EReal :=
  ∑ d : Fin 256, x (ix3 b n d) * W (ix2 d e)

/-- The projected row `(b, n)` contracted with the half of `a` whose rows are `row`. -/
def logit (x : SX.Idx → EReal) (W : SW.Idx → EReal) (a : SA.Idx → EReal) (row : Fin 128 → Fin 256) (b : Fin 8)
    (n : Fin 2048) : EReal :=
  ∑ e : Fin 128, proj x W b n e * a (ix2 (row e) (0 : Fin 1))

/-- The leaky rectifier with the slope the two programs share (one 32-bit pattern, never evaluated). -/
def leaky (v : EReal) : EReal :=
  Scalar.select (FloatOps.cmpf (F := Ideal) (φ := .f32) .ogt v (Scalar.ofBits (F := Ideal) .f32 0x00000000#32)) v
    (FloatOps.mulf (F := Ideal) (φ := .f32) (Scalar.ofBits (F := Ideal) .f32 0x3C23D70A#32) v)

/-- The score of the pair `(n, j)` in batch `b`. -/
def score (x1 x2 : SX.Idx → EReal) (mk : SMask.Idx → EReal) (W : SW.Idx → EReal) (a : SA.Idx → EReal)
    (b : Fin 8) (n j : Fin 2048) : EReal :=
  leaky (logit x1 W a topRow b n + logit x2 W a botRow b j) + mk (ix3 b (0 : Fin 1) j)

/-- The attention probabilities: the softmax of each score row. -/
def probs (x1 x2 : SX.Idx → EReal) (mk : SMask.Idx → EReal) (W : SW.Idx → EReal) (a : SA.Idx → EReal) : SProbs.Idx → EReal :=
  fun i => Cert.Lib.softmaxRow (fun j => score x1 x2 mk W a (i 0) (i 1) j) (i 2)

/-- The context: each row of probabilities contracted with the second input's projected rows. -/
def context (x1 x2 : SX.Idx → EReal) (mk : SMask.Idx → EReal) (W : SW.Idx → EReal) (a : SA.Idx → EReal) : SCtx.Idx → EReal :=
  fun i => ∑ j : Fin 2048, probs x1 x2 mk W a (ix3 (i 0) (i 1) j) * proj x2 W (i 0) j (i 2)

end Cert.Attn

end
-- ==== Proof.KBlocks.lean ====
/-
  Each input block of the kernel at a grid point, read at an index, is an entry of an argument array.

  The sixteen grid points are (batch, row tile) pairs in row-major order: point `t` works on batch `t / 2` and on rows
  `1024 · (t % 2) … 1024 · (t % 2) + 1023` of the first input; the second input's block and the mask's are the whole batch;
  the weight and the two halves of the attention vector are whole arrays (the halves are rows 0–127 and 128–255 of `a`,
  cut by two host slices before the launch).
-/
import proofs.«154157_j10754598109600_1_alg».proof.Proof.Gen.KernelIdeal.Value
import proofs.«154157_j10754598109600_1_alg».proof.Proof.Spec
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The windows' block indices at a grid point, decided over the sixteen points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 2 ∧ win0_6.index t (1 : Fin 3) = t.val % 2 ∧ win0_6.index t (2 : Fin 3) = 0
    ∧ win0_7.index t (0 : Fin 3) = t.val / 2 ∧ win0_7.index t (1 : Fin 3) = t.val % 2 ∧ win0_7.index t (2 : Fin 3) = 0 :=
  (by decide +kernel : ∀ t : Fin grid0.N, _)

/-- The batch a grid point works on. -/
def batchOf (t : Fin cfg0.N) : Fin 8 := ⟨t.val / 2, by have h1 := t.isLt; have h2 : cfg0.N = 16 := N_0; omega⟩
/-- The row of the first input that row `p` of the point's block is. -/
def rowOf (t : Fin cfg0.N) (p : Fin 1024) : Fin 2048 := ⟨1024 * (t.val % 2) + p.val, by have := p.isLt; omega⟩

/-- The first input's block: rows `1024 · (t % 2) + p` of batch `t / 2`. -/
theorem blk0 (c : Dev nD) (t : Fin cfg0.N) (p : Fin 1024) (d : Fin 256) :
    iblk m c 0 t (ix3 (0 : Fin 1) p d) = m ((c : Thread nD τ).loc main_arg0) (ix3 (batchOf t) (rowOf t p) d) := by
  obtain ⟨e0, e1, e2, -⟩ := idx_facts t
  show V m c main_arg0 (((cfg0.win 0).blk t).view.emb (ix3 (0 : Fin 1) p d)) = _
  rw [V_main_arg0 m c]
  refine congrArg (m ((c : Thread nD τ).loc main_arg0)) (funext fun a => Fin.ext ?_)
  match a with
  | ⟨0, _⟩ => show win0_0.index t (0 : Fin 3) * 1 + 1 * 0 = t.val / 2; omega
  | ⟨1, _⟩ => show win0_0.index t (1 : Fin 3) * 1024 + 1 * p.val = 1024 * (t.val % 2) + p.val; omega
  | ⟨2, _⟩ => show win0_0.index t (2 : Fin 3) * 256 + 1 * d.val = d.val; omega

/-- The second input's block: the whole batch. -/
theorem blk1 (c : Dev nD) (t : Fin cfg0.N) (j : Fin 2048) (d : Fin 256) :
    iblk m c 1 t (ix3 (0 : Fin 1) j d) = m ((c : Thread nD τ).loc main_arg1) (ix3 (batchOf t) j d) := by
  obtain ⟨-, -, -, e0, e1, e2, -⟩ := idx_facts t
  show V m c main_arg1 (((cfg0.win 1).blk t).view.emb (ix3 (0 : Fin 1) j d)) = _
  rw [V_main_arg1 m c]
  refine congrArg (m ((c : Thread nD τ).loc main_arg1)) (funext fun a => Fin.ext ?_)
  match a with
  | ⟨0, _⟩ => show win0_1.index t (0 : Fin 3) * 1 + 1 * 0 = t.val / 2; omega
  | ⟨1, _⟩ => show win0_1.index t (1 : Fin 3) * 2048 + 1 * j.val = j.val; omega
  | ⟨2, _⟩ => show win0_1.index t (2 : Fin 3) * 256 + 1 * d.val = d.val; omega

/-- The mask's block: the batch's one row. -/
theorem blk2 (c : Dev nD) (t : Fin cfg0.N) (j : Fin 2048) :
    iblk m c 2 t (ix3 (0 : Fin 1) (0 : Fin 1) j) = m ((c : Thread nD τ).loc main_arg2) (ix3 (batchOf t) (0 : Fin 1) j) := by
  obtain ⟨-, -, -, -, -, -, e0, e1, e2, -⟩ := idx_facts t
  show V m c main_arg2 (((cfg0.win 2).blk t).view.emb (ix3 (0 : Fin 1) (0 : Fin 1) j)) = _
  rw [V_main_arg2 m c]
  refine congrArg (m ((c : Thread nD τ).loc main_arg2)) (funext fun a => Fin.ext ?_)
  match a with
  | ⟨0, _⟩ => show win0_2.index t (0 : Fin 3) * 1 + 1 * 0 = t.val / 2; omega
  | ⟨1, _⟩ => show win0_2.index t (1 : Fin 3) * 1 + 1 * 0 = 0; omega
  | ⟨2, _⟩ => show win0_2.index t (2 : Fin 3) * 2048 + 1 * j.val = j.val; omega

/-- The weight's block: the whole array. -/
theorem blk3 (c : Dev nD) (t : Fin cfg0.N) (d : Fin 256) (e : Fin 128) :
    iblk m c 3 t (ix2 d e) = m ((c : Thread nD τ).loc main_arg3) (ix2 d e) := by
  obtain ⟨-, -, -, -, -, -, -, -, -, e0, e1, -⟩ := idx_facts t
  show V m c main_arg3 (((cfg0.win 3).blk t).view.emb (ix2 d e)) = _
  rw [V_main_arg3 m c]
  refine congrArg (m ((c : Thread nD τ).loc main_arg3)) (funext fun a => Fin.ext ?_)
  match a with
  | ⟨0, _⟩ => show win0_3.index t (0 : Fin 2) * 256 + 1 * d.val = d.val; omega
  | ⟨1, _⟩ => show win0_3.index t (1 : Fin 2) * 128 + 1 * e.val = e.val; omega

/-- The host slice that feeds window 4: rows 0–127 of the attention vector. -/
theorem V_v0 (c : Dev nD) : (V m c main_v0 : S128x1.Idx → Elt F .f32)
    = extractStridedSlice S128x1 ![0, 0] (m ((c : Thread nD τ).loc main_arg4)) slices_S256x1_S128x1_0_0 := by
  dsimp only [Gen.V, Gen.hostOps0]; after_results

/-- The host slice that feeds window 5: rows 128–255 of the attention vector. -/
theorem V_v1 (c : Dev nD) : (V m c main_v1 : S128x1.Idx → Elt F .f32)
    = extractStridedSlice S128x1 ![128, 0] (m ((c : Thread nD τ).loc main_arg4)) slices_S256x1_S128x1_128_0 := by
  dsimp only [Gen.V, Gen.hostOps0]; after_results

/-- Window 4's block: the upper half of the attention vector. -/
theorem blk4 (c : Dev nD) (t : Fin cfg0.N) (e : Fin 128) :
    iblk m c 4 t (ix2 e (0 : Fin 1)) = m ((c : Thread nD τ).loc main_arg4) (ix2 (Cert.Attn.topRow e) (0 : Fin 1)) := by
  obtain ⟨-, -, -, -, -, -, -, -, -, -, -, e0, e1, -⟩ := idx_facts t
  have h : iblk m c 4 t (ix2 e (0 : Fin 1)) = V m c main_v0 (ix2 e (0 : Fin 1)) := by
    show V m c main_v0 (((cfg0.win 4).blk t).view.emb (ix2 e (0 : Fin 1))) = _
    refine congrArg (V m c main_v0) (funext fun a => Fin.ext ?_)
    match a with
    | ⟨0, _⟩ => show win0_4.index t (0 : Fin 2) * 128 + 1 * e.val = e.val; omega
    | ⟨1, _⟩ => show win0_4.index t (1 : Fin 2) * 1 + 1 * 0 = 0; omega
  rw [h, V_v0]
  exact extractStridedSlice_apply ![0, 0] _ slices_S256x1_S128x1_0_0 (ix2 e (0 : Fin 1)) (ix2 (Cert.Attn.topRow e) (0 : Fin 1))
    (fun a => match a with
      | ⟨0, _⟩ => by show e.val = 0 + e.val; omega
      | ⟨1, _⟩ => by show 0 = 0 + 0; omega)

/-- Window 5's block: the lower half of the attention vector. -/
theorem blk5 (c : Dev nD) (t : Fin cfg0.N) (e : Fin 128) :
    iblk m c 5 t (ix2 e (0 : Fin 1)) = m ((c : Thread nD τ).loc main_arg4) (ix2 (Cert.Attn.botRow e) (0 : Fin 1)) := by
  obtain ⟨-, -, -, -, -, -, -, -, -, -, -, -, -, e0, e1, -⟩ := idx_facts t
  have h : iblk m c 5 t (ix2 e (0 : Fin 1)) = V m c main_v1 (ix2 e (0 : Fin 1)) := by
    show V m c main_v1 (((cfg0.win 5).blk t).view.emb (ix2 e (0 : Fin 1))) = _
    refine congrArg (V m c main_v1) (funext fun a => Fin.ext ?_)
    match a with
    | ⟨0, _⟩ => show win0_5.index t (0 : Fin 2) * 128 + 1 * e.val = e.val; omega
    | ⟨1, _⟩ => show win0_5.index t (1 : Fin 2) * 1 + 1 * 0 = 0; omega
  rw [h, V_v1]
  exact extractStridedSlice_apply ![128, 0] _ slices_S256x1_S128x1_128_0 (ix2 e (0 : Fin 1)) (ix2 (Cert.Attn.botRow e) (0 : Fin 1))
    (fun a => match a with
      | ⟨0, _⟩ => by show 128 + e.val = 128 + e.val; omega
      | ⟨1, _⟩ => by show 0 = 0 + 0; omega)

end Cert.KernelIdeal.Blocks

end
-- ==== Proof.LibSoftmaxLanes.lean ====
/-
  The softmax along the last axis in two further spellings, each read at an index as the ONE function
  `Cert.Lib.softmaxRow` of the row: `exp (s q − μ) / ∑ⱼ exp (s j − μ)`, `μ` the row's maximum taken from −∞.

  * In a kernel, over the lanes of an `[M, C]` array, the maximum used as the lane reduction gives it (no further
    `maximumf` with a splat −∞): `kernel_softmaxLanes`.
  * On the host, over the last axis of a `[B, N, C]` array: the row maximum as a `reduce` with a `maximum` body from −∞
    joined once more with −∞ (`host_rowTop3`), which is the fold of `max` over the row.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«154157_j10754598109600_1_alg».proof.Proof.LibKeepdims
import proofs.«154157_j10754598109600_1_alg».proof.Proof.LibLogSoftmax
import proofs.«154157_j10754598109600_1_alg».proof.Proof.LibRowSoftmax

noncomputable section

namespace Cert.Lib

open Idealize.ShloMosaic Idealize.ShloMosaic.ValueIdx

variable {M C : Nat}

/-- The exponentials shifted by the row maximum, the maximum being the lane reduction itself, read at `(p, j)`. -/
theorem kernel_shiftedExpLanes (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (j : Fin C) :
    exp (subf z (broadcastTo ⟨2, ![M, C]⟩ (shapeCast ⟨2, ![M, 1]⟩
        (multiReduction .maximumf [(1 : Fin 2)] ⟨1, ![M]⟩ z 0xFF800000#32 hr hφ hmax) hc) hb)) (ix2 p j)
      = Ideal.exp (z (ix2 p j) - rowTop (fun j => z (ix2 p j))) := by
  show Ideal.exp (z (ix2 p j) - broadcastTo ⟨2, ![M, C]⟩ _ hb (ix2 p j)) = _
  rw [Cert.LibKeepdims.broadcastTo_a1_ab_apply _ hb p j, Cert.LibKeepdims.shapeCast_a_a1_apply _ hc p (0 : Fin 1),
    Ideal.multiReduction_maximumf_single z _ hr hφ hmax (ix1 p)]
  exact congrArg (fun f => Ideal.exp (z (ix2 p j) - (Finset.univ : Finset (Fin C)).fold max (Ideal.ofBits .f32 0xFF800000#32) f))
    (funext fun k => congrArg z (lift_lane hr p k))

/-- The kernel's spelling of the whole softmax along the lanes, read at `(p, q)`: entry `q` of the softmax of row `p`. -/
theorem kernel_softmaxLanes (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    divf (exp (subf z (broadcastTo ⟨2, ![M, C]⟩ (shapeCast ⟨2, ![M, 1]⟩
            (multiReduction .maximumf [(1 : Fin 2)] ⟨1, ![M]⟩ z 0xFF800000#32 hr hφ hmax) hc) hb)))
        (broadcastTo ⟨2, ![M, C]⟩ (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc) hb) (ix2 p q)
      = softmaxRow (fun j => z (ix2 p j)) q :=
  kernel_rowOverSum _ hr hφ hadd hc hb p q (fun j => Ideal.exp (z (ix2 p j) - rowTop (fun j => z (ix2 p j))))
    (fun j => kernel_shiftedExpLanes z hr hφ hmax hc hb p j)

variable {B N : Nat}

/-- Row `(b, n)` of a `[B, N, C]` array with lane `k` put back is the index `(b, n, k)`. -/
theorem lift_lane3 (h : (⟨3, ![B, N, C]⟩ : Shape).Reduces [(2 : Fin 3)] (⟨2, ![B, N]⟩ : Shape)) (b : Fin B) (n : Fin N)
    (k : Fin ((⟨3, ![B, N, C]⟩ : Shape).size 2)) : h.lift (ix2 b n) k = ix3 b n (⟨k.val, k.isLt⟩ : Fin C) := by
  funext c; apply Fin.ext
  fin_cases c <;> rfl

/-- The host's row maximum over the last axis of a rank-3 array — a `reduce` with a `maximum` body from −∞, joined once
    more with −∞ — is the fold of `max` from −∞ over the row. -/
theorem host_rowTop3 (z : FVec Ideal ⟨3, ![B, N, C]⟩ .f32)
    (h' : (⟨3, ![B, N, C]⟩ : Shape).ReducesTo [(2 : Fin 3)] (⟨2, ![B, N]⟩ : Shape))
    (hr : (⟨3, ![B, N, C]⟩ : Shape).Reduces [(2 : Fin 3)] (⟨2, ![B, N]⟩ : Shape)) (hu : 0 < (⟨0, ![]⟩ : Shape).numel)
    (b : Fin B) (n : Fin N) :
    max (Ideal.ofBits .f32 0xFF800000#32)
        (Host.reduce FloatOps.maximumf z (constant (F := Ideal) ⟨0, ![]⟩ .f32 0xFF800000#32) h' hu (ix2 b n))
      = rowTop (fun j => z (ix3 b n j)) := by
  rw [max_negInf, Host.reduce_eq_fold_single FloatOps.maximumf z _ h' hr hu (ix2 b n)]
  exact congrArg (fun f => (Finset.univ : Finset (Fin C)).fold max (Ideal.ofBits .f32 0xFF800000#32) f)
    (funext fun k => congrArg z (lift_lane3 hr b n k))

end Cert.Lib

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.Payloads.lean ====
/-
  The kernel body's arithmetic read at an index, over the extended reals: each store's value as a plain formula of
  the blocks the body loads.

  * the second input's block projected by `W` (kept in the first scratch), entry `(j, e)`: `∑_d x₂(j, d) · W(d, e)`;
  * its contraction with the lower half of the attention vector (kept in the second scratch as one row);
  * the probabilities of a block of 1024 rows: the softmax of the score rows;
  * the context of those rows: the probabilities contracted with the projected second input.
-/
import proofs.«154157_j10754598109600_1_alg».proof.Proof.Gen.KernelIdeal.Skeleton
import proofs.«154157_j10754598109600_1_alg».proof.Proof.LibSoftmaxLanes
import proofs.«154157_j10754598109600_1_alg».proof.Proof.LibPlainDot
import proofs.«154157_j10754598109600_1_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The stored copy of the probabilities: the same entries under a leading unit axis. -/
theorem pay1_apply (v35 : FVec Ideal S1024x2048 .f32) (u : Fin 1) (p : Fin 1024) (j : Fin 2048) :
    k0_pay1 (F := Ideal) v35 (ix3 u p j) = v35 (ix2 p j) := by
  unfold k0_pay1
  exact shapeCast_ab_1ab_apply v35 shapeCasts_S1024x2048_S1x1024x2048 u p j

/-- The context rows: the probabilities contracted with the rows kept in the first scratch. -/
theorem pay2_apply (v35 : FVec Ideal S1024x2048 .f32) (v40 : Vec Ideal S2048x128 .bf16) (u : Fin 1) (p : Fin 1024)
    (e : Fin 128) :
    k0_pay2 (F := Ideal) v35 v40 (ix3 u p e) = ∑ j : Fin 2048, v35 (ix2 p j) * v40 (ix2 j e) := by
  unfold k0_pay2
  refine (shapeCast_ab_1ab_apply _ shapeCasts_S1024x128_S1x1024x128 u p e).trans ?_
  exact Cert.Lib.matmul_plain_zero_apply none (truncf .bf16 v35 bitsLt_bf16_f32) v40 p e

/-- The second input's block projected by `W`. -/
theorem pay3_apply (v45 : Vec Ideal S1x2048x256 .f32) (v48 : Vec Ideal S256x128 .f32) (j : Fin 2048) (e : Fin 128) :
    k0_pay3 (F := Ideal) v45 v48 (ix2 j e) = ∑ d : Fin 256, v45 (ix3 (0 : Fin 1) j d) * v48 (ix2 d e) := by
  unfold k0_pay3
  refine (Cert.Lib.matmul_plain_zero_apply none
    (truncf .bf16 (shapeCast S2048x256 v45 shapeCasts_S1x2048x256_S2048x256) bitsLt_bf16_f32)
    (truncf .bf16 v48 bitsLt_bf16_f32) j e).trans ?_
  refine Finset.sum_congr rfl fun d _ => ?_
  show shapeCast S2048x256 v45 shapeCasts_S1x2048x256_S2048x256 (ix2 j d) * v48 (ix2 d e) = _
  rw [shapeCast_1ab_ab_apply]

/-- What the first scratch is given: the projected block itself. -/
theorem pay4_eq (v45 : Vec Ideal S1x2048x256 .f32) (v48 : Vec Ideal S256x128 .f32) :
    k0_pay4 (F := Ideal) v45 v48 = k0_pay3 (F := Ideal) v45 v48 := by
  unfold k0_pay4
  exact shapeCast_self _ _

/-- What the second scratch is given: the projected block contracted with the lower half of the attention vector, as a row. -/
theorem pay5_apply (v45 : Vec Ideal S1x2048x256 .f32) (v48 : Vec Ideal S256x128 .f32) (v55 : Vec Ideal S128x1 .f32)
    (u : Fin 1) (j : Fin 2048) :
    k0_pay5 (F := Ideal) v45 v48 v55 (ix2 u j)
      = ∑ e : Fin 128, k0_pay3 (F := Ideal) v45 v48 (ix2 j e) * v55 (ix2 e (0 : Fin 1)) := by
  unfold k0_pay5
  rw [shapeCast_self]
  refine (shapeCast_apply _ shapeCasts_S2048x1_S1x2048 (ix2 u j) (ix2 j (0 : Fin 1)) ?_).trans ?_
  · have hu : u.val = 0 := by omega
    rw [Shape.rowMajor_val_two, Shape.rowMajor_val_two]
    show j.val * 1 + 0 = u.val * 2048 + j.val
    omega
  · refine (Cert.Lib.matmul_plain_zero_apply none (k0_pay3 (F := Ideal) v45 v48)
      (truncf .bf16 (shapeCast S128x1 v55 shapeCasts_S128x1_S128x1) bitsLt_bf16_f32) j (0 : Fin 1)).trans ?_
    refine Finset.sum_congr rfl fun e _ => ?_
    show k0_pay3 (F := Ideal) v45 v48 (ix2 j e) * shapeCast S128x1 v55 shapeCasts_S128x1_S128x1 (ix2 e (0 : Fin 1)) = _
    rw [shapeCast_self]

/-- The first input's block projected by `W` and contracted with the upper half of the attention vector: one logit per row. -/
def rowLogit (v3 : Vec Ideal S1x1024x256 .f32) (v6 : Vec Ideal S256x128 .f32) (v10 : Vec Ideal S128x1 .f32) (p : Fin 1024) : EReal :=
  ∑ e : Fin 128, (∑ d : Fin 256, v3 (ix3 (0 : Fin 1) p d) * v6 (ix2 d e)) * v10 (ix2 e (0 : Fin 1))

/-- The probabilities of a block of rows: entry `(p, q)` is entry `q` of the softmax of row `p`'s scores, a score being
    the leaky rectifier of the row's logit plus the second scratch's entry, plus the mask entry. -/
theorem pay6_apply (v3 : Vec Ideal S1x1024x256 .f32) (v6 : Vec Ideal S256x128 .f32) (v10 : Vec Ideal S128x1 .f32)
    (v14 : Vec Ideal S1x2048 .f32) (v23 : Vec Ideal S1x1x2048 .f32) (p : Fin 1024) (q : Fin 2048) :
    k0_pay6 (F := Ideal) v3 v6 v10 v14 v23 (ix2 p q)
      = Cert.Lib.softmaxRow (fun j => Cert.Attn.leaky (rowLogit v3 v6 v10 p + v14 (ix2 (0 : Fin 1) j))
          + v23 (ix3 (0 : Fin 1) (0 : Fin 1) j)) q := by
  unfold k0_pay6
  refine (Cert.Lib.kernel_softmaxLanes _ reduces_S1024x2048_S1024 (.inl rfl) rfl rfl shapeCasts_S1024_S1024x1
    broadcasts_S1024x1_S1024x2048 p q).trans ?_
  refine congrArg (fun s => Cert.Lib.softmaxRow s q) (funext fun j => ?_)
  have hA : broadcastTo S1024x2048 (matmul dot_S1024x128_S128x1_S1024x1_1_0_0_1_n_n none
        (truncf .bf16 (matmul dot_S1024x256_S256x128_S1024x128_1_0_0_1_n_n none
          (truncf .bf16 (shapeCast S1024x256 v3 shapeCasts_S1x1024x256_S1024x256) bitsLt_bf16_f32)
          (truncf .bf16 v6 bitsLt_bf16_f32) (constant (F := Ideal) S1024x128 .f32 0x00000000#32)) bitsLt_bf16_f32)
        (truncf .bf16 (shapeCast S128x1 v10 shapeCasts_S128x1_S128x1) bitsLt_bf16_f32)
        (constant (F := Ideal) S1024x1 .f32 0x00000000#32)) broadcasts_S1024x1_S1024x2048 (ix2 p j) = rowLogit v3 v6 v10 p := by
    refine (Cert.LibKeepdims.broadcastTo_a1_ab_apply _ broadcasts_S1024x1_S1024x2048 p j).trans ?_
    refine (Cert.Lib.matmul_plain_zero_apply none _ _ p (0 : Fin 1)).trans ?_
    refine Finset.sum_congr rfl fun e _ => ?_
    show FloatOps.matmul dot_S1024x256_S256x128_S1024x128_1_0_0_1_n_n none
        (truncf .bf16 (shapeCast S1024x256 v3 shapeCasts_S1x1024x256_S1024x256) bitsLt_bf16_f32)
        (truncf .bf16 v6 bitsLt_bf16_f32) (constant (F := Ideal) S1024x128 .f32 0x00000000#32) (ix2 p e)
      * shapeCast S128x1 v10 shapeCasts_S128x1_S128x1 (ix2 e (0 : Fin 1)) = _
    rw [shapeCast_self]
    refine congrArg (· * v10 (ix2 e (0 : Fin 1))) ?_
    refine (Cert.Lib.matmul_plain_zero_apply none _ _ p e).trans ?_
    refine Finset.sum_congr rfl fun d _ => ?_
    show shapeCast S1024x256 v3 shapeCasts_S1x1024x256_S1024x256 (ix2 p d) * v6 (ix2 d e) = _
    rw [shapeCast_1ab_ab_apply]
  have hB : broadcastTo S1024x2048 v14 broadcasts_S1x2048_S1024x2048 (ix2 p j) = v14 (ix2 (0 : Fin 1) j) :=
    broadcastTo_1b_ab_apply v14 broadcasts_S1x2048_S1024x2048 p j
  have hC : broadcastTo S1024x2048 (shapeCast S1x2048 v23 shapeCasts_S1x1x2048_S1x2048) broadcasts_S1x2048_S1024x2048 (ix2 p j)
      = v23 (ix3 (0 : Fin 1) (0 : Fin 1) j) :=
    (broadcastTo_1b_ab_apply _ broadcasts_S1x2048_S1024x2048 p j).trans
      (shapeCast_1ab_ab_apply v23 shapeCasts_S1x1x2048_S1x2048 (0 : Fin 1) j)
  refine Eq.trans ?_ (congrArg₂ (fun s t => Cert.Attn.leaky s + t) (congrArg₂ (· + ·) hA hB) hC)
  rfl

end Cert.KernelIdeal.Pay

end
-- ==== Proof.Cases.lean ====
/-
  What the kernel body leaves, case by case, in its two output blocks and its two scratch buffers, as the body's own
  arithmetic of the blocks it loaded.

  At the first row tile of a batch the body projects the second input's block and keeps it (first scratch) and its
  contraction with the lower half of the attention vector (second scratch), then uses both; at the other row tile it
  uses what the scratch buffers already hold and leaves them as they are.
-/
import proofs.«154157_j10754598109600_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The probabilities block at the second row tile: the body's softmax over the scores built from the second scratch. -/
theorem out_B_7 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : ¬cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) (xs0 : Vec F S2048x128 .bf16) (xs1 : Vec F S1x2048 .f32) :
    out0_B_7 c i arg2 harg2 arg3 harg3 arg4 harg4 arg5 harg5 arg6 harg6 arg7 harg7 arg8 harg8 arg9 harg9 arg10 harg10 arg11 harg11 hc0 x0 x1 x2 x3 x4 x5 xs0 xs1 = k0_pay1 (k0_pay6 x0 x3 x4 xs1 x2) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

/-- The context block at the second row tile: those probabilities contracted with the first scratch. -/
theorem out_B_6 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : ¬cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) (xs0 : Vec F S2048x128 .bf16) (xs1 : Vec F S1x2048 .f32) :
    out0_B_6 c i arg2 harg2 arg3 harg3 arg4 harg4 arg5 harg5 arg6 harg6 arg7 harg7 arg8 harg8 arg9 harg9 arg10 harg10 arg11 harg11 hc0 x0 x1 x2 x3 x4 x5 xs0 xs1 = k0_pay2 (k0_pay6 x0 x3 x4 xs1 x2) xs0 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

/-- The first scratch after the first row tile: the projected block of the second input. -/
theorem sout_A_0 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) :
    sout0_A_0 c i arg2 harg2 arg3 harg3 arg4 harg4 arg5 harg5 arg6 harg6 arg7 harg7 arg8 harg8 arg9 harg9 arg10 harg10 arg11 harg11 hc0 x0 x1 x2 x3 x4 x5 = k0_pay4 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

/-- The second scratch after the first row tile: that block contracted with the lower half of the attention vector. -/
theorem sout_A_1 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) :
    sout0_A_1 c i arg2 harg2 arg3 harg3 arg4 harg4 arg5 harg5 arg6 harg6 arg7 harg7 arg8 harg8 arg9 harg9 arg10 harg10 arg11 harg11 hc0 x0 x1 x2 x3 x4 x5 = k0_pay5 x1 x3 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

/-- The probabilities block at the first row tile: as at the second, over what the body has just put in the second scratch. -/
theorem out_A_7 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) :
    out0_A_7 c i arg2 harg2 arg3 harg3 arg4 harg4 arg5 harg5 arg6 harg6 arg7 harg7 arg8 harg8 arg9 harg9 arg10 harg10 arg11 harg11 hc0 x0 x1 x2 x3 x4 x5 = k0_pay1 (k0_pay6 x0 x3 x4 (k0_pay5 x1 x3 x5) x2) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

/-- The context block at the first row tile: over what the body has just put in both scratch buffers. -/
theorem out_A_6 (c : Dev nD) (i : grid0.Coords) (arg2 : Memref sig .tc .vmem S1x1024x256 .f32) (harg2 : arg2.IsWhole) (arg3 : Memref sig .tc .vmem S1x2048x256 .f32) (harg3 : arg3.IsWhole) (arg4 : Memref sig .tc .vmem S1x1x2048 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S1x1024x128 .f32) (harg8 : arg8.IsWhole) (arg9 : Memref sig .tc .vmem S1x1024x2048 .f32) (harg9 : arg9.IsWhole) (arg10 : Memref sig .tc .vmem S2048x128 .bf16) (harg10 : arg10.IsWhole) (arg11 : Memref sig .tc .vmem S1x2048 .f32) (harg11 : arg11.IsWhole) (hc0 : cond0_0 i) (x0 : Vec F S1x1024x256 .f32) (x1 : Vec F S1x2048x256 .f32) (x2 : Vec F S1x1x2048 .f32) (x3 : Vec F S256x128 .f32) (x4 : Vec F S128x1 .f32) (x5 : Vec F S128x1 .f32) :
    out0_A_6 c i arg2 harg2 arg3 harg3 arg4 harg4 arg5 harg5 arg6 harg6 arg7 harg7 arg8 harg8 arg9 harg9 arg10 harg10 arg11 harg11 hc0 x0 x1 x2 x3 x4 x5 = k0_pay2 (k0_pay6 x0 x3 x4 (k0_pay5 x1 x3 x5) x2) (k0_pay4 x1 x3) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread,
    harg6.read_unread, harg7.read_unread, harg10.read_unread, harg11.read_unread,
    View.ld_unit_zero (S := S1x1024x256) hz3, View.ld_unit_zero (S := S1x2048x256) hz3, View.ld_unit_zero (S := S1x1x2048) hz3,
    View.ld_unit_zero (S := S256x128) hz2, View.ld_unit_zero (S := S128x1) hz2, View.ld_unit_zero (S := S1x2048) hz2,
    View.ld_unit_zero (S := S2048x128) hz2, View.readCov_unit_zero (S := S1x2048) _ hz2,
    View.readCov_unit_zero (S := S2048x128) _ hz2]

end Cert.KernelIdeal.Cases

end
-- ==== Proof.KValue.lean ====
/-
  The kernel's two result arrays after the run, each as ONE function of the argument arrays: the attention
  probabilities and the context of `Cert.Attn`.

  The body keeps, across the two row tiles of a batch, the second input's projected rows and their logits in two
  scratch buffers, written at the batch's first tile; by induction on the grid point both scratch buffers hold the
  current batch's values after every point. With that, what a point writes back is the block of `Cert.Attn.probs` /
  `Cert.Attn.context` at its batch and rows, and the sixteen blocks cover both arrays.
-/
import proofs.«154157_j10754598109600_1_alg».proof.Proof.KBlocks
import proofs.«154157_j10754598109600_1_alg».proof.Proof.Payloads
import proofs.«154157_j10754598109600_1_alg».proof.Proof.Cases

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks

variable (m : (ℓ : Loc nD τ sig) → Buf (Elt Ideal) ℓ) (ρ : Dev nD → PrngReg)

/-- The five argument arrays as launched. -/
abbrev x1 (c : Dev nD) : S8x2048x256.Idx → EReal := m ((c : Thread nD τ).loc main_arg0)
abbrev x2 (c : Dev nD) : S8x2048x256.Idx → EReal := m ((c : Thread nD τ).loc main_arg1)
abbrev mk (c : Dev nD) : S8x1x2048.Idx → EReal := m ((c : Thread nD τ).loc main_arg2)
abbrev wt (c : Dev nD) : S256x128.Idx → EReal := m ((c : Thread nD τ).loc main_arg3)
abbrev av (c : Dev nD) : S256x1.Idx → EReal := m ((c : Thread nD τ).loc main_arg4)

/-- What a point leaves in its two output blocks, over what it leaves in the two scratch buffers: in both cases of the
    body the probabilities are computed from the second scratch as the point leaves it, and the context from the first. -/
theorem point_eq (c : Dev nD) (t : Fin cfg0.N) :
    (outsAt0 m c t.val t.isLt).2.1
        = k0_pay1 (k0_pay6 (iblk m c 0 t) (iblk m c 3 t) (iblk m c 4 t) (outsAt0 m c t.val t.isLt).2.2.2 (iblk m c 2 t))
    ∧ (outsAt0 m c t.val t.isLt).1
        = k0_pay2 (k0_pay6 (iblk m c 0 t) (iblk m c 3 t) (iblk m c 4 t) (outsAt0 m c t.val t.isLt).2.2.2 (iblk m c 2 t))
            (outsAt0 m c t.val t.isLt).2.2.1 := by
  by_cases h0 : t.val % 2 = 0
  · rw [outsAt0_A m c t h0]
    dsimp only
    refine ⟨?_, ?_⟩
    · exact (Cases.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans
        (congrArg (fun s => k0_pay1 (k0_pay6 (iblk m c 0 t) (iblk m c 3 t) (iblk m c 4 t) s (iblk m c 2 t)))
          (Cases.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).symm)
    · exact (Cases.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans
        (congrArg₂ (fun s s' => k0_pay2 (k0_pay6 (iblk m c 0 t) (iblk m c 3 t) (iblk m c 4 t) s (iblk m c 2 t)) s')
          (Cases.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).symm
          (Cases.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).symm)
  · rw [outsAt0_B m c t h0]
    dsimp only
    exact ⟨Cases.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2,
      Cases.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The second input's block projected, in the spec's words. -/
theorem pay3_blk (c : Dev nD) (t : Fin cfg0.N) (j : Fin 2048) (e : Fin 128) :
    k0_pay3 (F := Ideal) (iblk m c 1 t) (iblk m c 3 t) (ix2 j e) = Cert.Attn.proj (x2 m c) (wt m c) (batchOf t) j e := by
  refine (Pay.pay3_apply (iblk m c 1 t) (iblk m c 3 t) j e).trans ?_
  unfold Cert.Attn.proj
  exact Finset.sum_congr rfl fun d _ => congrArg₂ (· * ·) (blk1 m c t j d) (blk3 m c t d e)

/-- At a batch's first row tile the body fills both scratch buffers with the batch's values. -/
theorem scratch_first (c : Dev nD) (t : Fin cfg0.N) (h0 : t.val % 2 = 0) :
    (∀ (j : Fin 2048) (e : Fin 128),
        (outsAt0 m c t.val t.isLt).2.2.1 (ix2 j e) = Cert.Attn.proj (x2 m c) (wt m c) (batchOf t) j e)
    ∧ (∀ (u : Fin 1) (j : Fin 2048),
        (outsAt0 m c t.val t.isLt).2.2.2 (ix2 u j) = Cert.Attn.logit (x2 m c) (wt m c) (av m c) Cert.Attn.botRow (batchOf t) j) := by
  rw [outsAt0_A m c t h0]
  dsimp only
  refine ⟨fun j e => ?_, fun u j => ?_⟩
  · refine (congrFun (Cases.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) (ix2 j e)).trans ?_
    refine (congrFun (Pay.pay4_eq (iblk m c 1 t) (iblk m c 3 t)) (ix2 j e)).trans ?_
    exact pay3_blk m c t j e
  · refine (congrFun (Cases.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)) (ix2 u j)).trans ?_
    refine (Pay.pay5_apply (iblk m c 1 t) (iblk m c 3 t) (iblk m c 5 t) u j).trans ?_
    unfold Cert.Attn.logit
    exact Finset.sum_congr rfl fun e _ => congrArg₂ (· * ·) (pay3_blk m c t j e) (blk5 m c t e)

/-- After EVERY point the two scratch buffers hold the point's batch's projected second input and its logits: filled at
    the batch's first row tile, left alone at the second. -/
theorem scratch_eq (c : Dev nD) : ∀ (n : ℕ) (h : n < cfg0.N),
    (∀ (j : Fin 2048) (e : Fin 128),
        (outsAt0 m c n h).2.2.1 (ix2 j e) = Cert.Attn.proj (x2 m c) (wt m c) (batchOf ⟨n, h⟩) j e)
    ∧ (∀ (u : Fin 1) (j : Fin 2048),
        (outsAt0 m c n h).2.2.2 (ix2 u j) = Cert.Attn.logit (x2 m c) (wt m c) (av m c) Cert.Attn.botRow (batchOf ⟨n, h⟩) j) := by
  intro n
  induction n with
  | zero => intro h; exact scratch_first m c ⟨0, h⟩ rfl
  | succ k ih =>
    intro h
    by_cases h0 : (k + 1) % 2 = 0
    · exact scratch_first m c ⟨k + 1, h⟩ h0
    · obtain ⟨i0, i1⟩ := ih (Nat.lt_of_succ_lt h)
      have hb : batchOf ⟨k + 1, h⟩ = batchOf ⟨k, Nat.lt_of_succ_lt h⟩ := Fin.ext (by show (k + 1) / 2 = k / 2; omega)
      rw [outsAt0_B m c ⟨k + 1, h⟩ h0, hb]
      exact ⟨i0, i1⟩

/-- The probabilities the body computes at a point, in the spec's words. -/
theorem pay6_blk (c : Dev nD) (t : Fin cfg0.N) (p : Fin 1024) (q : Fin 2048) :
    k0_pay6 (F := Ideal) (iblk m c 0 t) (iblk m c 3 t) (iblk m c 4 t) (outsAt0 m c t.val t.isLt).2.2.2 (iblk m c 2 t) (ix2 p q)
      = Cert.Attn.probs (x1 m c) (x2 m c) (mk m c) (wt m c) (av m c) (ix3 (batchOf t) (rowOf t p) q) := by
  refine (Pay.pay6_apply (iblk m c 0 t) (iblk m c 3 t) (iblk m c 4 t) (outsAt0 m c t.val t.isLt).2.2.2 (iblk m c 2 t) p q).trans ?_
  show _ = Cert.Lib.softmaxRow (fun j => Cert.Attn.score (x1 m c) (x2 m c) (mk m c) (wt m c) (av m c) (batchOf t) (rowOf t p) j) q
  refine congrArg (fun s => Cert.Lib.softmaxRow s q) (funext fun j => ?_)
  unfold Cert.Attn.score
  refine congrArg₂ (fun s s' => Cert.Attn.leaky s + s')
    (congrArg₂ (· + ·) ?_ ((scratch_eq m c t.val t.isLt).2 (0 : Fin 1) j)) (blk2 m c t j)
  unfold Pay.rowLogit Cert.Attn.logit Cert.Attn.proj
  exact Finset.sum_congr rfl fun e _ => congrArg₂ (· * ·)
    (Finset.sum_congr rfl fun d _ => congrArg₂ (· * ·) (blk0 m c t p d) (blk3 m c t d e)) (blk4 m c t e)

/-- The probabilities block a point leaves is the spec's block at the point's batch and rows. -/
theorem probs_block (c : Dev nD) (t : Fin cfg0.N) (u : Fin 1) (p : Fin 1024) (q : Fin 2048) :
    (outsAt0 m c t.val t.isLt).2.1 (ix3 u p q) = Cert.Attn.probs (x1 m c) (x2 m c) (mk m c) (wt m c) (av m c) (ix3 (batchOf t) (rowOf t p) q) := by
  refine (congrFun (point_eq m c t).1 (ix3 u p q)).trans ?_
  refine (Pay.pay1_apply (k0_pay6 (F := Ideal) (iblk m c 0 t) (iblk m c 3 t) (iblk m c 4 t) (outsAt0 m c t.val t.isLt).2.2.2 (iblk m c 2 t)) u p q).trans ?_
  exact pay6_blk m c t p q

/-- The context block a point leaves is the spec's block at the point's batch and rows. -/
theorem ctx_block (c : Dev nD) (t : Fin cfg0.N) (u : Fin 1) (p : Fin 1024) (e : Fin 128) :
    (outsAt0 m c t.val t.isLt).1 (ix3 u p e) = Cert.Attn.context (x1 m c) (x2 m c) (mk m c) (wt m c) (av m c) (ix3 (batchOf t) (rowOf t p) e) := by
  refine (congrFun (point_eq m c t).2 (ix3 u p e)).trans ?_
  refine (Pay.pay2_apply (k0_pay6 (F := Ideal) (iblk m c 0 t) (iblk m c 3 t) (iblk m c 4 t) (outsAt0 m c t.val t.isLt).2.2.2 (iblk m c 2 t))
    (outsAt0 m c t.val t.isLt).2.2.1 u p e).trans ?_
  show _ = ∑ j : Fin 2048, Cert.Attn.probs (x1 m c) (x2 m c) (mk m c) (wt m c) (av m c) (ix3 (batchOf t) (rowOf t p) j)
      * Cert.Attn.proj (x2 m c) (wt m c) (batchOf t) j e
  exact Finset.sum_congr rfl fun j _ => congrArg₂ (· * ·) (pay6_blk m c t p j) ((scratch_eq m c t.val t.isLt).1 j e)

/-! ## From blocks to the arrays -/

/-- What point `t` writes back to the probabilities array is the spec's block at `t`. -/
theorem flushed7_eq (c : Dev nD) (t : Fin cfg0.N) :
    (dats m 0 c).flushed 7 t = ((cfg0.win 7).blk t).view.read (Elt Ideal) (Cert.Attn.probs (x1 m c) (x2 m c) (mk m c) (wt m c) (av m c)) := by
  obtain ⟨-, -, -, -, -, -, -, -, -, -, -, -, -, -, -, -, -, -, e0, e1, e2⟩ := idx_facts t
  rw [Cert.KernelIdeal.Value.flushed7]
  funext y
  obtain ⟨u, p, q, rfl⟩ : ∃ (u : Fin 1) (p : Fin 1024) (q : Fin 2048), y = ix3 u p q := ⟨y 0, y 1, y 2, eq_ix3 y⟩
  show (outsAt0 m c t.val t.isLt).2.1 (ix3 u p q)
    = Cert.Attn.probs (x1 m c) (x2 m c) (mk m c) (wt m c) (av m c) (((cfg0.win 7).blk t).view.emb (ix3 u p q))
  rw [probs_block]
  refine congrArg (Cert.Attn.probs (x1 m c) (x2 m c) (mk m c) (wt m c) (av m c)) (funext fun a => Fin.ext ?_)
  have hu : u.val = 0 := by omega
  match a with
  | ⟨0, _⟩ => show t.val / 2 = win0_7.index t (0 : Fin 3) * 1 + 1 * u.val; omega
  | ⟨1, _⟩ => show 1024 * (t.val % 2) + p.val = win0_7.index t (1 : Fin 3) * 1024 + 1 * p.val; omega
  | ⟨2, _⟩ => show q.val = win0_7.index t (2 : Fin 3) * 2048 + 1 * q.val; omega

/-- What point `t` writes back to the context array is the spec's block at `t`. -/
theorem flushed6_eq (c : Dev nD) (t : Fin cfg0.N) :
    (dats m 0 c).flushed 6 t = ((cfg0.win 6).blk t).view.read (Elt Ideal) (Cert.Attn.context (x1 m c) (x2 m c) (mk m c) (wt m c) (av m c)) := by
  obtain ⟨-, -, -, -, -, -, -, -, -, -, -, -, -, -, -, e0, e1, e2, -⟩ := idx_facts t
  rw [Cert.KernelIdeal.Value.flushed6]
  funext y
  obtain ⟨u, p, q, rfl⟩ : ∃ (u : Fin 1) (p : Fin 1024) (q : Fin 128), y = ix3 u p q := ⟨y 0, y 1, y 2, eq_ix3 y⟩
  show (outsAt0 m c t.val t.isLt).1 (ix3 u p q)
    = Cert.Attn.context (x1 m c) (x2 m c) (mk m c) (wt m c) (av m c) (((cfg0.win 6).blk t).view.emb (ix3 u p q))
  rw [ctx_block]
  refine congrArg (Cert.Attn.context (x1 m c) (x2 m c) (mk m c) (wt m c) (av m c)) (funext fun a => Fin.ext ?_)
  have hu : u.val = 0 := by omega
  match a with
  | ⟨0, _⟩ => show t.val / 2 = win0_6.index t (0 : Fin 3) * 1 + 1 * u.val; omega
  | ⟨1, _⟩ => show 1024 * (t.val % 2) + p.val = win0_6.index t (1 : Fin 3) * 1024 + 1 * p.val; omega
  | ⟨2, _⟩ => show q.val = win0_6.index t (2 : Fin 3) * 128 + 1 * q.val; omega

/-- An index of the probabilities array is in point `t`'s block iff each coordinate is in the block's range on its axis. -/
theorem mem_blk7 (t : Fin cfg0.N) (i : S8x2048x2048.Idx) :
    i ∈ ((cfg0.win 7).blk t).view.set ↔ ∀ a : Fin 3, win0_7.index t a * S1x1024x2048.size a ≤ (i a).val
      ∧ (i a).val < win0_7.index t a * S1x1024x2048.size a + S1x1024x2048.size a := by
  show i ∈ ((View.whole main_v2_1).slice (win0_7.rect t)).set ↔ _
  rw [View.set_slice_whole, Rect.mem_set_unit]
  exact Iff.rfl

/-- The same for the context array. -/
theorem mem_blk6 (t : Fin cfg0.N) (i : S8x2048x128.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v2_0).slice (win0_6.rect t)).set ↔ _
  rw [View.set_slice_whole, Rect.mem_set_unit]
  exact Iff.rfl

/-- Every entry `(b, n, ·)` of the probabilities array is written back by the point of batch `b` and row tile `n / 1024`. -/
theorem cover7 (i : S8x2048x2048.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 2048 := (i 2).isLt
  have hN : cfg0.N = 16 := N_0
  obtain ⟨t, ht⟩ : ∃ t : Fin cfg0.N, t.val = 2 * (i 0).val + (i 1).val / 1024 :=
    ⟨⟨2 * (i 0).val + (i 1).val / 1024, by omega⟩, rfl⟩
  obtain ⟨-, -, -, -, -, -, -, -, -, -, -, -, -, -, -, -, -, -, e0, e1, e2⟩ := idx_facts t
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 1024 ≤ (i 1).val ∧ (i 1).val < win0_7.index t (1 : Fin 3) * 1024 + 1024
    omega
  | ⟨2, _⟩ =>
    show win0_7.index t (2 : Fin 3) * 2048 ≤ (i 2).val ∧ (i 2).val < win0_7.index t (2 : Fin 3) * 2048 + 2048
    omega

/-- The same for the context array. -/
theorem cover6 (i : S8x2048x128.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 128 := (i 2).isLt
  have hN : cfg0.N = 16 := N_0
  obtain ⟨t, ht⟩ : ∃ t : Fin cfg0.N, t.val = 2 * (i 0).val + (i 1).val / 1024 :=
    ⟨⟨2 * (i 0).val + (i 1).val / 1024, by omega⟩, rfl⟩
  obtain ⟨-, -, -, -, -, -, -, -, -, -, -, -, -, -, -, e0, e1, e2, -⟩ := idx_facts t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 128 ≤ (i 2).val ∧ (i 2).val < win0_6.index t (2 : Fin 3) * 128 + 128
    omega

/-- The probabilities array after the run. -/
theorem final7 (c : Dev nD) : (dats m 0 c).arrAt 7 cfg0.N = Cert.Attn.probs (x1 m c) (x2 m c) (mk m c) (wt m c) (av m c) :=
  (dats m 0 c).arrAt_eq_of_cover 7 (Cert.Attn.probs (x1 m c) (x2 m c) (mk m c) (wt m c) (av m c)) (fun t _ => flushed7_eq m c t) cover7

/-- The context array after the run. -/
theorem final6 (c : Dev nD) : (dats m 0 c).arrAt 6 cfg0.N = Cert.Attn.context (x1 m c) (x2 m c) (mk m c) (wt m c) (av m c) :=
  (dats m 0 c).arrAt_eq_of_cover 6 (Cert.Attn.context (x1 m c) (x2 m c) (mk m c) (wt m c) (av m c)) (fun t _ => flushed6_eq m c t) cover6

/-- The kernel's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v2_0) = Cert.Attn.context (x1 m c) (x2 m c) (mk m c) (wt m c) (av m c)
      ∧ r.2.mem ((c : Thread nD τ).loc main_v2_1) = Cert.Attn.probs (x1 m c) (x2 m c) (mk m c) (wt m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2.1.trans (final7 m c), (h c).2.2⟩)
    (Cert.KernelIdeal.Value.run_blocks m ρ)

end Cert.KernelIdeal.KValue

end
-- ==== Proof.RefValue.lean ====
/-
  The reference's two results, read one operation at a time, are the attention probabilities and the context of
  `Cert.Attn`: the two `dot_general`s with `W` are the projections, the two with the halves of `a` the logits, the
  transpose and the two broadcasts lay the logits out as the outer sum, `where` is the leaky rectifier, the reduce / exp /
  reduce / divide chain is the softmax of each score row (the row maximum taken from −∞), and the batched `dot_general`
  is the contraction with the second input's projected rows.
-/
import proofs.«154157_j10754598109600_1_alg».proof.Proof.Gen.ReferenceIdeal.Read
import proofs.«154157_j10754598109600_1_alg».proof.Proof.Spec
import proofs.«154157_j10754598109600_1_alg».proof.Proof.LibSoftmaxLanes

noncomputable section

namespace Cert.ReferenceIdeal.RefValue

open Cert.ReferenceIdeal Cert.ReferenceIdeal.Gen Cert.ReferenceIdeal.Read Idealize.ShloMosaic Idealize.ShloMosaic.ValueIdx

local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

variable (x0 x1 : (⟨S8x2048x256, .f32⟩ : BufTy).Contents (Elt Ideal)) (x2 : (⟨S8x1x2048, .f32⟩ : BufTy).Contents (Elt Ideal)) (x3 : (⟨S256x128, .f32⟩ : BufTy).Contents (Elt Ideal)) (x4 : (⟨S256x1, .f32⟩ : BufTy).Contents (Elt Ideal))

/-- The first input projected by `W`. -/
theorem v0_eq (b : Fin 8) (n : Fin 2048) (e : Fin 128) :
    val_main_v0 (F := Ideal) x0 x3 (ix3 b n e) = Cert.Attn.proj x0 x3 b n e := by
  rw [val_main_v0_apply]
  unfold Cert.Attn.proj
  refine Finset.sum_congr rfl fun k _ => ?_
  rw [show lidx_main_v0 (ix3 b n e) k = ix3 b n k from by idx3, show ridx_main_v0 (ix3 b n e) k = ix2 k e from by idx2]

/-- The second input projected by `W`. -/
theorem v1_eq (b : Fin 8) (n : Fin 2048) (e : Fin 128) :
    val_main_v1 (F := Ideal) x1 x3 (ix3 b n e) = Cert.Attn.proj x1 x3 b n e := by
  rw [val_main_v1_apply]
  unfold Cert.Attn.proj
  refine Finset.sum_congr rfl fun k _ => ?_
  rw [show lidx_main_v1 (ix3 b n e) k = ix3 b n k from by idx3, show ridx_main_v1 (ix3 b n e) k = ix2 k e from by idx2]

/-- The first input's logits: its projected rows contracted with rows 0–127 of `a`. -/
theorem v3_eq (b : Fin 8) (n : Fin 2048) (u : Fin 1) :
    val_main_v3 (F := Ideal) x0 x3 x4 (ix3 b n u) = Cert.Attn.logit x0 x3 x4 Cert.Attn.topRow b n := by
  obtain rfl : u = 0 := Subsingleton.elim _ _
  rw [val_main_v3_apply]
  unfold Cert.Attn.logit
  refine Finset.sum_congr rfl fun k _ => ?_
  rw [show lidx_main_v3 (ix3 b n (0 : Fin 1)) k = ix3 b n k from by idx3,
    show ridx_main_v3 (ix3 b n (0 : Fin 1)) k = ix2 k (0 : Fin 1) from by idx2, v0_eq, val_main_v2_apply,
    show idx_main_v2 (ix2 k (0 : Fin 1)) = ix2 (Cert.Attn.topRow k) (0 : Fin 1) from by idx2]

/-- The second input's logits: its projected rows contracted with rows 128–255 of `a`. -/
theorem v5_eq (b : Fin 8) (n : Fin 2048) (u : Fin 1) :
    val_main_v5 (F := Ideal) x1 x3 x4 (ix3 b n u) = Cert.Attn.logit x1 x3 x4 Cert.Attn.botRow b n := by
  obtain rfl : u = 0 := Subsingleton.elim _ _
  rw [val_main_v5_apply]
  unfold Cert.Attn.logit
  refine Finset.sum_congr rfl fun k _ => ?_
  rw [show lidx_main_v5 (ix3 b n (0 : Fin 1)) k = ix3 b n k from by idx3,
    show ridx_main_v5 (ix3 b n (0 : Fin 1)) k = ix2 k (0 : Fin 1) from by idx2, v1_eq, val_main_v4_apply,
    show idx_main_v4 (ix2 k (0 : Fin 1)) = ix2 (Cert.Attn.botRow k) (0 : Fin 1) from by idx2]

/-- The outer sum of the two logits. -/
theorem v9_eq (b : Fin 8) (n j : Fin 2048) :
    val_main_v9 (F := Ideal) x0 x1 x3 x4 (ix3 b n j)
      = Cert.Attn.logit x0 x3 x4 Cert.Attn.topRow b n + Cert.Attn.logit x1 x3 x4 Cert.Attn.botRow b j := by
  rw [val_main_v9_apply, val_main_v7_apply, val_main_v8_apply, val_main_v6_apply,
    show idx_main_v7 (ix3 b n j) = ix3 b n (0 : Fin 1) from by idx3,
    show idx_main_v6 (idx_main_v8 (ix3 b n j)) = ix3 b j (0 : Fin 1) from by idx3, v3_eq, v5_eq]
  rfl

/-- The scores. -/
theorem v16_eq (b : Fin 8) (n j : Fin 2048) :
    val_main_v16 (F := Ideal) x0 x1 x2 x3 x4 (ix3 b n j) = Cert.Attn.score x0 x1 x2 x3 x4 b n j := by
  rw [val_main_v16_apply, val_main_v14_apply, val_main_v11_apply, val_main_v13_apply, val_main_v10_apply,
    val_main_v12_apply, val_main_cst_apply, val_main_cst_0_apply, val_main_v15_apply, v9_eq,
    show idx_main_v15 (ix3 b n j) = ix3 b (0 : Fin 1) j from by idx3]
  rfl

/-- The row maximum the reference subtracts: the fold of `max` from −∞ over the score row. -/
theorem v19_eq (b : Fin 8) (n : Fin 2048) :
    val_main_v19 (F := Ideal) x0 x1 x2 x3 x4 (ix2 b n)
      = Cert.Lib.rowTop (fun j => Cert.Attn.score x0 x1 x2 x3 x4 b n j) := by
  rw [val_main_v19_apply, val_main_v18_apply, val_main_cst_2_apply]
  unfold val_main_v17 val_main_cst_1
  refine (Cert.Lib.host_rowTop3 (val_main_v16 (F := Ideal) x0 x1 x2 x3 x4) reducesTo_S8x2048x2048_S8x2048_d2
    (by decide) h_S_ b n).trans ?_
  exact congrArg Cert.Lib.rowTop (funext fun j => v16_eq x0 x1 x2 x3 x4 b n j)

/-- The shifted exponentials. -/
theorem v23_eq (b : Fin 8) (n j : Fin 2048) :
    val_main_v23 (F := Ideal) x0 x1 x2 x3 x4 (ix3 b n j)
      = Ideal.exp (Cert.Attn.score x0 x1 x2 x3 x4 b n j - Cert.Lib.rowTop (fun j => Cert.Attn.score x0 x1 x2 x3 x4 b n j)) := by
  rw [val_main_v23_apply, val_main_v22_apply, val_main_v21_apply, val_main_v20_apply,
    show idx_main_v20 (idx_main_v21 (ix3 b n j)) = ix2 b n from by idx2, v19_eq, v16_eq]
  rfl

/-- The reference's first result is the attention probabilities. -/
theorem probs_eq : val_main_v27 (F := Ideal) x0 x1 x2 x3 x4 = Cert.Attn.probs x0 x1 x2 x3 x4 := by
  funext i
  obtain ⟨b, n, j, rfl⟩ : ∃ (b : Fin 8) (n : Fin 2048) (j : Fin 2048), i = ix3 b n j := ⟨i 0, i 1, i 2, eq_ix3 i⟩
  rw [val_main_v27_apply, val_main_v26_apply, val_main_v25_apply,
    show idx_main_v25 (idx_main_v26 (ix3 b n j)) = ix2 b n from by idx2, val_main_v24_apply, val_main_cst_3_apply, v23_eq]
  show Ideal.div _ (Ideal.ofBits .f32 0x00000000#32 + _) = Cert.Lib.softmaxRow (fun j => Cert.Attn.score x0 x1 x2 x3 x4 b n j) j
  rw [Ideal.ofBits_zero_f32, zero_add]
  unfold Cert.Lib.softmaxRow
  refine congrArg (Ideal.div _) (Finset.sum_congr rfl fun k _ => ?_)
  rw [show idx_main_v24 (ix2 b n) k = ix3 b n k from by idx3, v23_eq]

/-- The reference's second result is the context. -/
theorem context_eq : val_main_v28 (F := Ideal) x0 x1 x2 x3 x4 = Cert.Attn.context x0 x1 x2 x3 x4 := by
  funext i
  obtain ⟨b, n, e, rfl⟩ : ∃ (b : Fin 8) (n : Fin 2048) (e : Fin 128), i = ix3 b n e := ⟨i 0, i 1, i 2, eq_ix3 i⟩
  rw [val_main_v28_apply, probs_eq]
  show _ = ∑ j : Fin 2048, Cert.Attn.probs x0 x1 x2 x3 x4 (ix3 b n j) * Cert.Attn.proj x1 x3 b j e
  refine Finset.sum_congr rfl fun k _ => ?_
  rw [show lidx_main_v28 (ix3 b n e) k = ix3 b n k from by idx3, show ridx_main_v28 (ix3 b n e) k = ix3 b k e from by idx3, v1_eq]

end Cert.ReferenceIdeal.RefValue

end
-- ==== Proof.lean ====
/-
  The certificate of a fused additive cross-attention kernel against its plain reference, over the extended reals.

  Both programs compute, per batch, the probabilities `softmax_j (leaky (ℓ₁(n) + ℓ₂(j)) + mask(j))` — `ℓ₁`, `ℓ₂` the two
  inputs' rows projected by `W` and contracted with the two halves of the attention vector — and the context, the
  probabilities contracted with the second input's projected rows (`Cert.Attn`, Proof/Spec.lean). The kernel works on
  blocks of 1024 rows of one batch and keeps the second input's projected rows and logits across the two row tiles of a
  batch; the reference computes whole arrays. Index by index both are the same sums, maxima and quotients of the same
  entries, so no law beyond re-indexing is needed and the precondition is not used.

  The kernel's result arrays as functions of the arguments: Proof/KValue.lean (over the body's arithmetic read at an
  index, Proof/Payloads.lean; the body's two cases, Proof/Cases.lean; the input blocks, Proof/KBlocks.lean). The
  reference's: Proof/RefValue.lean. The three frames are the programs' runs with the results dropped; the idealization
  rewrote no operation.
-/
import proofs.«154157_j10754598109600_1_alg».proof.Defs
import proofs.«154157_j10754598109600_1_alg».proof.Proof.Gen.Kernel
import proofs.«154157_j10754598109600_1_alg».proof.Proof.Gen.Kernel.Skeleton
import proofs.«154157_j10754598109600_1_alg».proof.Proof.Gen.Kernel.Launch
import proofs.«154157_j10754598109600_1_alg».proof.Proof.Gen.Kernel.Points
import proofs.«154157_j10754598109600_1_alg».proof.Proof.Gen.Kernel.Frame
import proofs.«154157_j10754598109600_1_alg».proof.Proof.Gen.KernelIdeal
import proofs.«154157_j10754598109600_1_alg».proof.Proof.Gen.KernelIdeal.Skeleton
import proofs.«154157_j10754598109600_1_alg».proof.Proof.Gen.KernelIdeal.Launch
import proofs.«154157_j10754598109600_1_alg».proof.Proof.Gen.KernelIdeal.Points
import proofs.«154157_j10754598109600_1_alg».proof.Proof.Gen.KernelIdeal.Frame
import proofs.«154157_j10754598109600_1_alg».proof.Proof.Gen.ReferenceIdeal
import proofs.«154157_j10754598109600_1_alg».proof.Proof.Gen.Pre_finite_inputs
import proofs.«154157_j10754598109600_1_alg».proof.Proof.Gen.KernelIdeal.Value
import proofs.«154157_j10754598109600_1_alg».proof.Proof.Gen.ReferenceIdeal.Run
import proofs.«154157_j10754598109600_1_alg».proof.Proof.Gen.ReferenceIdeal.Read
import proofs.«154157_j10754598109600_1_alg».proof.Proof.KValue
import proofs.«154157_j10754598109600_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments the kernel's two result arrays end at the context and the probabilities
    of the arguments, and so do the reference's. -/
theorem algebraic : Cert.algebraic_KernelIdeal_ReferenceIdeal := by
  intro m ρ m' ρ' _ hagree
  refine ⟨fun c => Cert.Attn.context (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Attn.probs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, Cert.ReferenceIdeal.RefValue.context_eq,
      (hagree c).1, (hagree c).2.1, (hagree c).2.2.1, (hagree c).2.2.2.1, (hagree c).2.2.2.2]
  · rw [Cert.ReferenceIdeal.Read.val_main_v27_eq, Cert.ReferenceIdeal.RefValue.probs_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
